-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4000x4 : Shape := ⟨3, ![4096, 4000, 4]⟩
abbrev S_ : Shape := ⟨0, ![]⟩

class Facts : Prop where
  bcast_S_S4096x4000x4 : S_.BroadcastsInDim S4096x4000x4 (![] : Fin 0 → Fin S4096x4000x4.rank)
  reducesTo_S4096x4000x4_S_d0_1_2 : S4096x4000x4.ReducesTo [0, 1, 2] S_
  h_S_ : 0 < S_.numel

variable [Facts]

def fn {F : FTy → Type} [FloatOps F] (main_arg0 : FVec F S4096x4000x4 .f32) (main_arg1 : FVec F S4096x4000x4 .f32) : IVec S_ 1 :=
  let main_v0 : FVec F S4096x4000x4 .f32 := Host.absf main_arg0
  let main_cst : FVec F S_ .f32 := constant S_ .f32 0x7F800000#32
  let main_v1 : FVec F S4096x4000x4 .f32 := broadcastInDim S4096x4000x4 ![] bcast_S_S4096x4000x4 main_cst
  let main_v2 : IVec S4096x4000x4 1 := cmpf .olt main_v0 main_v1
  let main_c : IVec S_ 1 := constantI S_ 1 1#1
  let main_v3 : IVec S_ 1 := (fun x v => Host.reduce IntOp.andi x v reducesTo_S4096x4000x4_S_d0_1_2 h_S_) main_v2 main_c
  let main_v4 : FVec F S4096x4000x4 .f32 := Host.absf main_arg1
  let main_cst_0 : FVec F S_ .f32 := constant S_ .f32 0x7F800000#32
  let main_v5 : FVec F S4096x4000x4 .f32 := broadcastInDim S4096x4000x4 ![] bcast_S_S4096x4000x4 main_cst_0
  let main_v6 : IVec S4096x4000x4 1 := cmpf .olt main_v4 main_v5
  let main_c_1 : IVec S_ 1 := constantI S_ 1 1#1
  let main_v7 : IVec S_ 1 := (fun x v => Host.reduce IntOp.andi x v reducesTo_S4096x4000x4_S_d0_1_2 h_S_) main_v6 main_c_1
  let main_v8 : IVec S_ 1 := andi main_v3 main_v7
  main_v8
-- ==== Kernel.lean ====
abbrev S4096x4000x4 : Shape := ⟨3, ![4096, 4000, 4]⟩
abbrev S4096x16000 : Shape := ⟨2, ![4096, 16000]⟩
abbrev S1x16000 : Shape := ⟨2, ![1, 16000]⟩
abbrev S512x640 : Shape := ⟨2, ![512, 640]⟩
abbrev S1x640 : Shape := ⟨2, ![1, 640]⟩
abbrev S640 : Shape := ⟨1, ![640]⟩
abbrev S4000x4 : Shape := ⟨2, ![4000, 4]⟩
abbrev S_ : Shape := ⟨0, ![]⟩
abbrev S4 : Shape := ⟨1, ![4]⟩

abbrev nBuf : Space → Nat
  | .hbm => 30
  | .vmem => 8
  | .smem => 0
  | _ => 0

abbrev bufTy : (tb : Table) → Fin (tcTables nBuf tb) → BufTy
  | .hbm, ⟨0, _⟩ => ⟨S4096x4000x4, .f32⟩
  | .hbm, ⟨1, _⟩ => ⟨S4096x4000x4, .f32⟩
  | .hbm, ⟨2, _⟩ => ⟨S4096x16000, .f32⟩
  | .hbm, ⟨3, _⟩ => ⟨S4096x16000, .f32⟩
  | .hbm, ⟨4, _⟩ => ⟨S1x16000, .f32⟩
  | .hbm, ⟨5, _⟩ => ⟨S1x16000, .f32⟩
  | .hbm, ⟨6, _⟩ => ⟨S4000x4, .f32⟩
  | .hbm, ⟨7, _⟩ => ⟨S4000x4, .f32⟩
  | .hbm, ⟨8, _⟩ => ⟨S_, .f32⟩
  | .hbm, ⟨9, _⟩ => ⟨S4000x4, .f32⟩
  | .hbm, ⟨10, _⟩ => ⟨S4000x4, .i1⟩
  | .hbm, ⟨11, _⟩ => ⟨S_, .f32⟩
  | .hbm, ⟨12, _⟩ => ⟨S4000x4, .f32⟩
  | .hbm, ⟨13, _⟩ => ⟨S4000x4, .f32⟩
  | .hbm, ⟨14, _⟩ => ⟨S4000x4, .f32⟩
  | .hbm, ⟨15, _⟩ => ⟨S_, .f32⟩
  | .hbm, ⟨16, _⟩ => ⟨S_, .f32⟩
  | .hbm, ⟨17, _⟩ => ⟨S4000x4, .f32⟩
  | .hbm, ⟨18, _⟩ => ⟨S4000x4, .f32⟩
  | .hbm, ⟨19, _⟩ => ⟨S4000x4, .f32⟩
  | .hbm, ⟨20, _⟩ => ⟨S4000x4, .f32⟩
  | .hbm, ⟨21, _⟩ => ⟨S_, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S1x640, .f32⟩
  | .local _ .vmem, ⟨5, _⟩ => ⟨S1x640, .f32⟩
  | .local _ .vmem, ⟨6, _⟩ => ⟨S1x640, .f32⟩
  | .local _ .vmem, ⟨7, _⟩ => ⟨S1x640, .f32⟩
  | _, _ => ⟨S4096x4000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![25, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4096x4000x4_S4096x16000 : S4096x4000x4.ShapeCasts S4096x16000
  inb_S1x640_S1x640_0_0 : ∀ a, (![0, 0] : Fin 2 → Nat) a + S1x640.size a ≤ S1x640.size a
  h_S1x640 : 0 < S1x640.numel
  inb_S512x640_S512x640_0_0 : ∀ a, (![0, 0] : Fin 2 → Nat) a + S512x640.size a ≤ S512x640.size a
  h_S512x640 : 0 < S512x640.numel
  shapeCasts_S512x640_S512x640 : S512x640.ShapeCasts S512x640
  natLt_1_32 : 1 < 32
  shapeCasts_S1x640_S1x640 : S1x640.ShapeCasts S1x640
  reduces_S512x640_S640 : S512x640.Reduces [0] S640
  shapeCasts_S640_S1x640 : S640.ShapeCasts S1x640
  shapeCasts_S1x16000_S4000x4 : S1x16000.ShapeCasts S4000x4
  bcast_S_S4000x4 : S_.BroadcastsInDim S4000x4 (![] : Fin 0 → Fin S4000x4.rank)
  reducesTo_S4000x4_S4_d0 : S4000x4.ReducesTo [0] S4
  h_S_ : 0 < S_.numel
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x640.size a ≤ S4096x16000.size a
  hwx0_0 : ∀ i : grid0.Coords, EltTy.bits .f32 = 32 ∨ (Rect.block (s := S4096x16000) S512x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x640.size a ≤ S4096x16000.size a
  hwx0_1 : ∀ i : grid0.Coords, EltTy.bits .f32 = 32 ∨ (Rect.block (s := S4096x16000) S512x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x16000.size a
  hwx0_2 : ∀ i : grid0.Coords, EltTy.bits .f32 = 32 ∨ (Rect.block (s := S1x16000) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x640.size a ≤ S1x16000.size a
  hwx0_3 : ∀ i : grid0.Coords, EltTy.bits .f32 = 32 ∨ (Rect.block (s := S1x16000) S1x640.size (cc0_transform_3 i) (hinb0_3 i)).WholeWords (EltTy.packing .f32)

variable [Facts₀]

abbrev win0_0 : Pipeline.Window sig grid0 :=
  Pipeline.Window.ofSpec (Memref.whole main_v0) S512x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x640.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4000x4 : Shape := ⟨3, ![4096, 4000, 4]⟩
abbrev S_ : Shape := ⟨0, ![]⟩
abbrev S4000x4 : Shape := ⟨2, ![4000, 4]⟩
abbrev S4 : Shape := ⟨1, ![4]⟩

abbrev nBuf : Space → Nat
  | .hbm => 38
  | .vmem => 0
  | .smem => 0
  | _ => 0

abbrev bufTy : (tb : Table) → Fin (tcTables nBuf tb) → BufTy
  | .hbm, ⟨0, _⟩ => ⟨S4096x4000x4, .f32⟩
  | .hbm, ⟨1, _⟩ => ⟨S4096x4000x4, .f32⟩
  | .hbm, ⟨2, _⟩ => ⟨S4096x4000x4, .i1⟩
  | .hbm, ⟨3, _⟩ => ⟨S4096x4000x4, .i1⟩
  | .hbm, ⟨4, _⟩ => ⟨S4096x4000x4, .f32⟩
  | .hbm, ⟨5, _⟩ => ⟨S_, .f32⟩
  | .hbm, ⟨6, _⟩ => ⟨S_, .f32⟩
  | .hbm, ⟨7, _⟩ => ⟨S4096x4000x4, .f32⟩
  | .hbm, ⟨8, _⟩ => ⟨S4096x4000x4, .f32⟩
  | .hbm, ⟨9, _⟩ => ⟨S4096x4000x4, .f32⟩
  | .hbm, ⟨10, _⟩ => ⟨S4096x4000x4, .f32⟩
  | .hbm, ⟨11, _⟩ => ⟨S4096x4000x4, .f32⟩
  | .hbm, ⟨12, _⟩ => ⟨S_, .f32⟩
  | .hbm, ⟨13, _⟩ => ⟨S4000x4, .f32⟩
  | .hbm, ⟨14, _⟩ => ⟨S_, .f32⟩
  | .hbm, ⟨15, _⟩ => ⟨S4000x4, .f32⟩
  | .hbm, ⟨16, _⟩ => ⟨S_, .f32⟩
  | .hbm, ⟨17, _⟩ => ⟨S4000x4, .f32⟩
  | .hbm, ⟨18, _⟩ => ⟨S4000x4, .i1⟩
  | .hbm, ⟨19, _⟩ => ⟨S_, .f32⟩
  | .hbm, ⟨20, _⟩ => ⟨S4000x4, .f32⟩
  | .hbm, ⟨21, _⟩ => ⟨S4000x4, .f32⟩
  | .hbm, ⟨22, _⟩ => ⟨S4000x4, .f32⟩
  | .hbm, ⟨23, _⟩ => ⟨S_, .f32⟩
  | .hbm, ⟨24, _⟩ => ⟨S_, .f32⟩
  | .hbm, ⟨25, _⟩ => ⟨S4000x4, .f32⟩
  | .hbm, ⟨26, _⟩ => ⟨S4000x4, .f32⟩
  | .hbm, ⟨27, _⟩ => ⟨S4000x4, .f32⟩
  | .hbm, ⟨28, _⟩ => ⟨S4000x4, .f32⟩
  | .hbm, ⟨29, _⟩ => ⟨S_, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S4096x4000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_cst_8 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  bcast_S_S4096x4000x4 : S_.BroadcastsInDim S4096x4000x4 (![] : Fin 0 → Fin S4096x4000x4.rank)
  reducesTo_S4096x4000x4_S4000x4_d0 : S4096x4000x4.ReducesTo [0] S4000x4
  h_S_ : 0 < S_.numel
  bcast_S_S4000x4 : S_.BroadcastsInDim S4000x4 (![] : Fin 0 → Fin S4000x4.rank)
  reducesTo_S4000x4_S4_d0 : S4000x4.ReducesTo [0] S4
  reducesTo_S4_S_d0 : S4.ReducesTo [0] S_

variable [Facts₀]

class Facts : Prop extends Facts₀ where

variable [Facts]
-- ==== Proof.KernelPieces.lean ====
/-
  What one grid point's body leaves in the two accumulator blocks, as pure functions of what it loaded.

  The body has two cases. At the first row block of a column block it stores the zero row into both accumulators,
  reads it back, and adds this block's column sums: the count accumulator ends at `zero + (column sums of the validity
  indicator)`, the error accumulator at `zero + (column sums of the masked squared error)`. At every later row block
  it adds this block's column sums to what the previous point left. The generated frame run found, per case, the list
  of stores each accumulator ends with; here each list is read back as the one value it denotes: the last store covers
  the whole 1 x 640 block, so the block holds that store's value, whose loads are the whole input blocks and (first
  case) the zero row just stored or (later case) the running contents.
-/
import proofs.«134827_j7301444403961_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later row block, the count accumulator: the running contents plus this block's column sums of the indicator. -/
theorem count_later (c : Dev nD) (i : grid0.Coords) (a2 : Memref sig .tc .vmem S512x640 .f32) (h2 : a2.IsWhole)
    (a3 : Memref sig .tc .vmem S512x640 .f32) (h3 : a3.IsWhole) (a4 : Memref sig .tc .vmem S1x640 .f32) (h4 : a4.IsWhole)
    (a5 : Memref sig .tc .vmem S1x640 .f32) (h5 : a5.IsWhole) (hc : ¬cond0_0 i)
    (x0 x1 : Vec F S512x640 .f32) (xo2 xo3 : Vec F S1x640 .f32) :
    out0_B_2 c i a2 h2 a3 h3 a4 h4 a5 h5 hc x0 x1 xo2 xo3 = k0_pay6 x1 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz]
  simp only [View.readAt_eq_ld, h3.read_unread, h4.read_unread, View.ld_unit_zero (S := S512x640) hz,
    View.ld_unit_zero (S := S1x640) hz]

/-- A later row block, the error accumulator: the running contents plus this block's column sums of the squared error. -/
theorem error_later (c : Dev nD) (i : grid0.Coords) (a2 : Memref sig .tc .vmem S512x640 .f32) (h2 : a2.IsWhole)
    (a3 : Memref sig .tc .vmem S512x640 .f32) (h3 : a3.IsWhole) (a4 : Memref sig .tc .vmem S1x640 .f32) (h4 : a4.IsWhole)
    (a5 : Memref sig .tc .vmem S1x640 .f32) (h5 : a5.IsWhole) (hc : ¬cond0_0 i)
    (x0 x1 : Vec F S512x640 .f32) (xo2 xo3 : Vec F S1x640 .f32) :
    out0_B_3 c i a2 h2 a3 h3 a4 h4 a5 h5 hc x0 x1 xo2 xo3 = k0_pay7 x0 x1 xo3 := by
  unfold out0_B_3
  rw [View.read_writes_eq_canon _ _ _ (cover0_B_3 c i a2 h2 a3 h3 a4 h4 a5 h5 hc x0 x1 xo2 xo3)]
  unfold kernelRun0_B
  dsimp only
  rw [View.canon_unit_zero hz]
  simp only [View.readAt_eq_ld, h2.read_unread, h3.read_unread, h5.read_unread, View.ld_unit_zero (S := S512x640) hz,
    View.ld_unit_zero (S := S1x640) hz]

/-- The first row block, the count accumulator: the zero row just stored plus this block's column sums. -/
theorem count_first (c : Dev nD) (i : grid0.Coords) (a2 : Memref sig .tc .vmem S512x640 .f32) (h2 : a2.IsWhole)
    (a3 : Memref sig .tc .vmem S512x640 .f32) (h3 : a3.IsWhole) (a4 : Memref sig .tc .vmem S1x640 .f32) (h4 : a4.IsWhole)
    (a5 : Memref sig .tc .vmem S1x640 .f32) (h5 : a5.IsWhole) (hc : cond0_0 i)
    (x0 x1 : Vec F S512x640 .f32) :
    out0_A_2 c i a2 h2 a3 h3 a4 h4 a5 h5 hc x0 x1 = k0_pay6 x1 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x640) hz, View.readCov_unit_zero (S := S1x640) _ hz]
  simp only [View.readAt_eq_ld, h3.read_unread, View.ld_unit_zero (S := S512x640) hz]

/-- The first row block, the error accumulator: the zero row just stored plus this block's column sums. -/
theorem error_first (c : Dev nD) (i : grid0.Coords) (a2 : Memref sig .tc .vmem S512x640 .f32) (h2 : a2.IsWhole)
    (a3 : Memref sig .tc .vmem S512x640 .f32) (h3 : a3.IsWhole) (a4 : Memref sig .tc .vmem S1x640 .f32) (h4 : a4.IsWhole)
    (a5 : Memref sig .tc .vmem S1x640 .f32) (h5 : a5.IsWhole) (hc : cond0_0 i)
    (x0 x1 : Vec F S512x640 .f32) :
    out0_A_3 c i a2 h2 a3 h3 a4 h4 a5 h5 hc x0 x1 = k0_pay7 x0 x1 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x640) hz, View.readCov_unit_zero (S := S1x640) _ hz]
  simp only [View.readAt_eq_ld, h2.read_unread, h3.read_unread, View.ld_unit_zero (S := S512x640) hz]

end Cert.KernelIdeal.Pieces

end
-- ==== Proof.Pointwise.lean ====
/-
  The per-entry quantities of the masked squared error, over the extended reals.

  For a prediction `o` and a target `t`, an entry counts as valid when `t = t`. Over the extended reals every
  number equals itself (there is no not-a-number), so the validity bit is always set: the validity indicator is `1`,
  the masked target `select valid t 0` is `t` itself, and the entry's masked squared error is
  `((o - t) * 1) * ((o - t) * 1)`. Both programs compute exactly these, one spelling the validity bit as the ordered
  comparison `t = t` widened to a 32-bit integer and converted as a signed integer, the other as the negation of the
  unordered comparison `t ≠ t` converted as an unsigned bit.
-/
import Idealize.ShloMosaic.PureOps.Ideal
import Idealize.ShloMosaic.PureOps.Ideal.Laws
import Idealize.ShloMosaic.Lib.ValueIdx

noncomputable section

namespace MaskedError

open Idealize.ShloMosaic

/-- The masked squared error of one entry with prediction `o` and target `t` (the indicator factor `1` kept as the
    programs spell it). -/
def sqErr (o t : EReal) : EReal := ((o - t) * 1) * ((o - t) * 1)

/-- The ordered comparison of a number with itself holds. -/
theorem oeq_self (t : Ideal .f32) : FloatOps.cmpf (F := Ideal) .oeq t t = 1#1 := by
  show Ideal.cmp .oeq t t = 1#1
  simp [Ideal.cmp]

/-- The unordered "differs from itself" fails, so its negation holds. -/
theorem not_une_self (t : Ideal .f32) : ~~~(FloatOps.cmpf (F := Ideal) .une t t) = 1#1 := by
  show ~~~(Ideal.cmp .une t t) = 1#1
  simp [Ideal.cmp]

/-- The set bit, widened to 32 bits and read as a signed integer, is the number one. -/
theorem sitofp_set : (FloatOps.sitofp (F := Ideal) .f32 ((1#1 : BitVec 1).setWidth 32) : Ideal .f32) = (1 : EReal) := by
  show (((BitVec.setWidth 32 (1#1 : BitVec 1)).toInt : ℝ) : EReal) = 1
  have : (BitVec.setWidth 32 (1#1 : BitVec 1)).toInt = 1 := by decide
  rw [this]; norm_num

/-- The set bit read as an unsigned integer is the number one. -/
theorem uitofp_set : (FloatOps.uitofp (F := Ideal) .f32 (1#1 : BitVec 1) : Ideal .f32) = (1 : EReal) := by
  show (((1#1 : BitVec 1).toNat : ℝ) : EReal) = 1
  have : (1#1 : BitVec 1).toNat = 1 := by decide
  rw [this]; norm_num

/-- One program's validity indicator: always one. -/
theorem indicator_signed (t : Ideal .f32) :
    (FloatOps.sitofp (F := Ideal) .f32 ((FloatOps.cmpf (F := Ideal) .oeq t t).setWidth 32) : Ideal .f32) = (1 : EReal) := by
  rw [oeq_self]; exact sitofp_set

/-- The other program's validity indicator: always one. -/
theorem indicator_unsigned (t : Ideal .f32) :
    (FloatOps.uitofp (F := Ideal) .f32 (~~~(FloatOps.cmpf (F := Ideal) .une t t)) : Ideal .f32) = (1 : EReal) := by
  rw [not_une_self]; exact uitofp_set

end MaskedError

end
-- ==== Proof.KernelPayloads.lean ====
/-
  The two accumulator updates read at one lane, over the extended reals.

  For a 512 x 640 block `o` of predictions and `t` of targets and a 1 x 640 row `acc` of running contents, the count
  update at lane `l` is `acc l + ∑ k < 512, 1` (the validity indicator is `1` at every entry: every extended real equals
  itself) and the error update is `acc l + ∑ k < 512, sqErr (o k l) (t k l)`: a sum over the block's rows (its first
  axis) of the per-entry quantity, re-laid from a 640-vector to a 1 x 640 row. The zero row a first row block starts from
  reads `0` at every lane.
-/
import proofs.«134827_j7301444403961_2_alg».proof.Proof.Gen.KernelIdeal.Skeleton
import proofs.«134827_j7301444403961_2_alg».proof.Proof.Pointwise
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx MaskedError

/-- Summing a 512 x 640 block over its rows: the index inserted at row `k` above lane `l` is `(k, l)`. -/
theorem lift_rows (l : Fin 640) (k : Fin 512) :
    reduces_S512x640_S640.lift (ix1 l) k = (ix2 k l : S512x640.Idx) := by
  funext a
  apply Fin.ext
  match a with
  | ⟨0, _⟩ => rfl
  | ⟨1, _⟩ => rfl

/-- The block's column sums at lane `l`: the sum over the 512 rows. -/
theorem colSums_apply (src : FVec Ideal S512x640 .f32) (l : Fin 640) :
    multiReduction .add [0] S640 src 0x00000000#32 reduces_S512x640_S640 (.inl rfl) rfl (ix1 l)
      = ∑ k : Fin 512, src (ix2 k l) :=
  (Ideal.multiReduction_add_single src 0x00000000#32 reduces_S512x640_S640 (.inl rfl) rfl (ix1 l)).trans
    (Finset.sum_congr rfl fun k _ => congrArg src (lift_rows l k))

/-- The validity indicator of a block of targets is `1` at every entry. -/
theorem indicator_apply (t : Vec Ideal S512x640 .f32) (j : S512x640.Idx) : k0_pay5 (F := Ideal) t j = (1 : EReal) := by
  unfold k0_pay5 k0_pay4 k0_pay3
  dsimp only
  rw [shapeCast_self]
  exact indicator_signed (t j)

/-- The zero rows read `0`. -/
theorem zero_count_apply (y : S1x640.Idx) : k0_pay1 (F := Ideal) y = (0 : EReal) := by
  unfold k0_pay1
  exact Ideal.ofBits_zero_f32
theorem zero_error_apply (y : S1x640.Idx) : k0_pay2 (F := Ideal) y = (0 : EReal) := by
  unfold k0_pay2
  exact Ideal.ofBits_zero_f32

/-- The count update at lane `l`. -/
theorem count_apply (t : Vec Ideal S512x640 .f32) (acc : Vec Ideal S1x640 .f32) (u : Fin 1) (l : Fin 640) :
    k0_pay6 (F := Ideal) t acc (ix2 u l) = acc (ix2 u l) + ∑ k : Fin 512, (1 : EReal) := by
  unfold k0_pay6
  dsimp only
  rw [addf_apply, shapeCast_self]
  refine congrArg (acc (ix2 u l) + ·) ?_
  refine (shapeCast_a_1a_apply _ shapeCasts_S640_S1x640 u l).trans ?_
  refine (colSums_apply _ l).trans ?_
  exact Finset.sum_congr rfl fun k _ => indicator_apply t _

/-- The masked squared error of a block at one entry. -/
theorem sqErr_apply (o t : Vec Ideal S512x640 .f32) (j : S512x640.Idx) :
    mulf (mulf (subf (shapeCast S512x640 o shapeCasts_S512x640_S512x640)
        (select (k0_pay4 (F := Ideal) t) (k0_pay3 (F := Ideal) t) (broadcast S512x640 (Scalar.ofBits (F := Ideal) .f32 0x00000000#32))))
        (k0_pay5 (F := Ideal) t))
      (mulf (subf (shapeCast S512x640 o shapeCasts_S512x640_S512x640)
        (select (k0_pay4 (F := Ideal) t) (k0_pay3 (F := Ideal) t) (broadcast S512x640 (Scalar.ofBits (F := Ideal) .f32 0x00000000#32))))
        (k0_pay5 (F := Ideal) t)) j
      = sqErr (o j) (t j) := by
  rw [mulf_apply, mulf_apply, subf_apply, select_apply, indicator_apply, shapeCast_self]
  unfold k0_pay4 k0_pay3
  dsimp only
  rw [shapeCast_self, cmpf_apply, oeq_self, select_one]
  rfl

/-- The error update at lane `l`. -/
theorem error_apply (o t : Vec Ideal S512x640 .f32) (acc : Vec Ideal S1x640 .f32) (u : Fin 1) (l : Fin 640) :
    k0_pay7 (F := Ideal) o t acc (ix2 u l) = acc (ix2 u l) + ∑ k : Fin 512, sqErr (o (ix2 k l)) (t (ix2 k l)) := by
  unfold k0_pay7
  dsimp only
  rw [addf_apply, shapeCast_self]
  refine congrArg (acc (ix2 u l) + ·) ?_
  refine (shapeCast_a_1a_apply _ shapeCasts_S640_S1x640 u l).trans ?_
  refine (colSums_apply _ l).trans ?_
  exact Finset.sum_congr rfl fun k _ => sqErr_apply o t _

end Cert.KernelIdeal.Payloads

end
-- ==== Proof.LibRowBlocks.lean ====
/-
  PARTIAL COLUMN SUMS OF A MATRIX, GROWN ONE BLOCK OF ROWS AT A TIME.

  For a matrix `A` with `N` rows and `C` columns, with entries in any additive commutative monoid, `rowsUpTo A n c`
  is the sum of column `c` over the first `n` rows. The rows are addressed by natural numbers through a total accessor
  (`entry`: zero outside the matrix), so that the partial sums are sums over `Finset.range` and grow by
  `Finset.sum_range_add`: the sum over the first `n + k` rows is the sum over the first `n` rows plus the sum over the
  block of `k` rows starting at row `n` (`rowsUpTo_add`), that block's sum is the plain `Fin k`-indexed sum of the
  matrix's entries when the block lies inside the matrix (`block_eq_sum`; `rowsUpTo_succ_block` for blocks of a fixed
  height), and the sum over all `N` rows is the plain column sum (`rowsUpTo_all`). This is the bookkeeping behind "a column sum accumulated block of rows by block of
  rows is the column sum", whatever order the blocks' own sums were taken in.
-/
import Idealize.ShloMosaic.Lib.ValueIdx

noncomputable section

open scoped BigOperators

namespace RowBlocks

open Idealize.ShloMosaic Idealize.ShloMosaic.ValueIdx

variable {M : Type} [AddCommMonoid M] {N C : ℕ}

/-- The matrix's entry at row `r`, column `c` given as natural numbers: zero outside the matrix. -/
def entry (A : (⟨2, ![N, C]⟩ : Shape).Idx → M) (r c : ℕ) : M :=
  if h : r < N ∧ c < C then A (ix2 ⟨r, h.1⟩ ⟨c, h.2⟩) else 0

theorem entry_of_lt (A : (⟨2, ![N, C]⟩ : Shape).Idx → M) {r c : ℕ} (hr : r < N) (hc : c < C) :
    entry A r c = A (ix2 ⟨r, hr⟩ ⟨c, hc⟩) := dif_pos ⟨hr, hc⟩

/-- The sum of column `c` over the first `n` rows. -/
def rowsUpTo (A : (⟨2, ![N, C]⟩ : Shape).Idx → M) (n c : ℕ) : M := ∑ r ∈ Finset.range n, entry A r c

theorem rowsUpTo_zero (A : (⟨2, ![N, C]⟩ : Shape).Idx → M) (c : ℕ) : rowsUpTo A 0 c = 0 := Finset.sum_range_zero _

/-- The first `n + k` rows are the first `n` and then the block of `k` rows starting at row `n`. -/
theorem rowsUpTo_add (A : (⟨2, ![N, C]⟩ : Shape).Idx → M) (n k c : ℕ) :
    rowsUpTo A (n + k) c = rowsUpTo A n c + ∑ r ∈ Finset.range k, entry A (n + r) c :=
  Finset.sum_range_add _ _ _

/-- A block of `k` rows starting at row `n`, inside the matrix, sums the matrix's own entries. -/
theorem block_eq_sum (A : (⟨2, ![N, C]⟩ : Shape).Idx → M) (n k c : ℕ) (hn : n + k ≤ N) (hc : c < C) :
    ∑ r ∈ Finset.range k, entry A (n + r) c
      = ∑ r : Fin k, A (ix2 ⟨n + r.val, by have := r.isLt; omega⟩ ⟨c, hc⟩) := by
  rw [Finset.sum_range]
  exact Finset.sum_congr rfl fun r _ => entry_of_lt A _ hc

/-- Blocks of `b` rows: the first `j + 1` blocks are the first `j` blocks and then block `j`'s own `Fin b`-indexed sum. -/
theorem rowsUpTo_succ_block (A : (⟨2, ![N, C]⟩ : Shape).Idx → M) (b j c : ℕ) (hj : b * (j + 1) ≤ N) (hc : c < C) :
    rowsUpTo A (b * (j + 1)) c
      = rowsUpTo A (b * j) c + ∑ r : Fin b, A (ix2 ⟨b * j + r.val, by have := r.isLt; rw [Nat.mul_succ] at hj; omega⟩ ⟨c, hc⟩) := by
  have hj' : b * j + b ≤ N := by rw [← Nat.mul_succ]; exact hj
  have e : rowsUpTo A (b * (j + 1)) c = rowsUpTo A (b * j + b) c := congrArg (fun n => rowsUpTo A n c) (Nat.mul_succ b j)
  rw [e, rowsUpTo_add, block_eq_sum A (b * j) b c hj' hc]

/-- All `N` rows: the column's sum. -/
theorem rowsUpTo_all (A : (⟨2, ![N, C]⟩ : Shape).Idx → M) (c : ℕ) (hc : c < C) :
    rowsUpTo A N c = ∑ r : Fin N, A (ix2 r ⟨c, hc⟩) := by
  unfold rowsUpTo
  rw [Finset.sum_range]
  exact Finset.sum_congr rfl fun r _ => entry_of_lt A r.isLt hc

end RowBlocks

end
-- ==== Proof.KernelBlocks.lean ====
/-
  The two accumulator arrays after the region: each column's total over all 4096 rows.

  The region runs over a 25 x 8 grid: column block `q` (640 columns) outermost, row block `j` (512 rows) innermost, so
  point `n` has `q = n / 8` and `j = n % 8`. Its input blocks are rows `512 j … 512 j + 511`, columns
  `640 q … 640 q + 639` of the two 4096 x 16000 matrices the region finds (predictions `O`, targets `T`), and its two
  output blocks are columns `640 q … 640 q + 639` of the two 1 x 16000 result rows, written back after the last row
  block (`j = 7`) only.

  THE INVARIANT (`outsAt_eq`, by induction on the point): after point `n` the count accumulator holds, at lane `l`, the
  sum of column `640 q + l` of the all-ones matrix over the first `512 (j + 1)` rows, and the error accumulator the
  same partial column sum of the matrix of masked squared errors `sqErr (O r c) (T r c)`. At `j = 0` the body starts
  from the zero row; at `j > 0` it adds block `j`'s 512 rows to what point `n - 1` left (same `q`, row block `j - 1`).
  The only law used is that a sum over the first `512 (j + 1)` rows is the sum over the first `512 j` rows plus the sum
  over the next 512: nothing about finiteness, and nothing about the order inside a block.

  At `j = 7` all 4096 rows are in, so what is written back is the column totals, and the 25 write-backs tile the
  1 x 16000 rows: each result row ends holding every column's total (`count_final`, `error_final`).
-/
import proofs.«134827_j7301444403961_2_alg».proof.Proof.Gen.KernelIdeal.Frame
import proofs.«134827_j7301444403961_2_alg».proof.Proof.KernelPieces
import proofs.«134827_j7301444403961_2_alg».proof.Proof.KernelPayloads
import proofs.«134827_j7301444403961_2_alg».proof.Proof.LibRowBlocks
import Idealize.ShloMosaic.Lib.Pipeline.Value

noncomputable section

open scoped BigOperators

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx MaskedError RowBlocks

variable (m : (ℓ : Loc nD τ sig) → Buf (Elt Ideal) ℓ) (ρ : Dev nD → PrngReg)

/-! ## The two per-entry matrices -/

/-- The validity indicator of every entry: one. -/
def ones : (⟨2, ![4096, 16000]⟩ : Shape).Idx → EReal := fun _ => 1

/-- The masked squared error of every entry of the two matrices the region finds. -/
def errs (c : Dev nD) : (⟨2, ![4096, 16000]⟩ : Shape).Idx → EReal :=
  fun i => sqErr (V m c main_v0 i) (V m c main_v1 i)

/-- Every column's total over all rows, laid out as a 1 x 16000 row. -/
def colTotals (A : (⟨2, ![4096, 16000]⟩ : Shape).Idx → EReal) : (⟨2, ![1, 16000]⟩ : Shape).Idx → EReal :=
  fun i => ∑ r : Fin 4096, A (ix2 r ⟨(i 1).val, (i 1).isLt⟩)

/-! ## The grid -/

theorem lt_points (t : Fin cfg0.N) : t.val < 200 := lt_of_lt_of_eq t.isLt (show cfg0.N = 200 from N_0)

/-- Row `512 (n % 8) + k`: row `k` of row block `n % 8`. -/
def rowOf (n : ℕ) (k : Fin 512) : Fin 4096 := ⟨512 * (n % 8) + k.val, by have := k.isLt; omega⟩

/-- Column `640 (n / 8) + l`: lane `l` of column block `n / 8`. -/
def colOf (n : ℕ) (hn : n < 200) (l : Fin 640) : Fin 16000 := ⟨640 * (n / 8) + l.val, by have := l.isLt; omega⟩

/-- The printed index maps over the grid: the inputs' block is (row block `n % 8`, column block `n / 8`), the outputs'
    (0, column block `n / 8`). -/
theorem index_facts : ∀ t : Fin cfg0.N,
    win0_0.index t (0 : Fin 2) = t.val % 8 ∧ win0_0.index t (1 : Fin 2) = t.val / 8
    ∧ win0_1.index t (0 : Fin 2) = t.val % 8 ∧ win0_1.index t (1 : Fin 2) = t.val / 8
    ∧ win0_2.index t (0 : Fin 2) = 0 ∧ win0_2.index t (1 : Fin 2) = t.val / 8
    ∧ win0_3.index t (0 : Fin 2) = 0 ∧ win0_3.index t (1 : Fin 2) = t.val / 8 :=
  (by decide +kernel : ∀ t : Fin grid0.N, _)

/-- The block of predictions at point `t`, read at `(k, l)`. -/
theorem pred_block_apply (c : Dev nD) (t : Fin cfg0.N) (k : Fin 512) (l : Fin 640) :
    (iblk m c 0 t : Vec Ideal S512x640 .f32) (ix2 k l) = V m c main_v0 (ix2 (rowOf t.val k) (colOf t.val (lt_points t) l)) := by
  unfold iblk
  rw [View.read_apply]
  show V m c main_v0 _ = V m c main_v0 _
  congr 1
  funext a
  apply Fin.ext
  obtain ⟨e0, e1, -⟩ := index_facts t
  match a with
  | ⟨0, _⟩ => show win0_0.index t (0 : Fin 2) * 512 + 1 * k.val = 512 * (t.val % 8) + k.val; rw [e0]; omega
  | ⟨1, _⟩ => show win0_0.index t (1 : Fin 2) * 640 + 1 * l.val = 640 * (t.val / 8) + l.val; rw [e1]; omega

/-- The block of targets at point `t`, read at `(k, l)`. -/
theorem targ_block_apply (c : Dev nD) (t : Fin cfg0.N) (k : Fin 512) (l : Fin 640) :
    (iblk m c 1 t : Vec Ideal S512x640 .f32) (ix2 k l) = V m c main_v1 (ix2 (rowOf t.val k) (colOf t.val (lt_points t) l)) := by
  unfold iblk
  rw [View.read_apply]
  show V m c main_v1 _ = V m c main_v1 _
  congr 1
  funext a
  apply Fin.ext
  obtain ⟨-, -, e0, e1, -⟩ := index_facts t
  match a with
  | ⟨0, _⟩ => show win0_1.index t (0 : Fin 2) * 512 + 1 * k.val = 512 * (t.val % 8) + k.val; rw [e0]; omega
  | ⟨1, _⟩ => show win0_1.index t (1 : Fin 2) * 640 + 1 * l.val = 640 * (t.val / 8) + l.val; rw [e1]; omega

/-! ## The invariant -/

/-- Column `640 (n / 8) + l` of `A` summed over the first `512 (n % 8 + 1)` rows, lane by lane. -/
def partialSums (A : (⟨2, ![4096, 16000]⟩ : Shape).Idx → EReal) (n : ℕ) : Vec Ideal S1x640 .f32 :=
  fun y => rowsUpTo A (512 * (n % 8 + 1)) (640 * (n / 8) + (y 1).val)

/-- One more row block: the partial sum after point `n` is the sum over the earlier row blocks plus block `n % 8`'s rows. -/
theorem partialSums_grow (A : (⟨2, ![4096, 16000]⟩ : Shape).Idx → EReal) (n : ℕ) (hn : n < 200) (u : Fin 1) (l : Fin 640) :
    partialSums A n (ix2 u l)
      = rowsUpTo A (512 * (n % 8)) (640 * (n / 8) + l.val) + ∑ k : Fin 512, A (ix2 (rowOf n k) (colOf n hn l)) := by
  show rowsUpTo A (512 * (n % 8 + 1)) (640 * (n / 8) + l.val) = _
  exact rowsUpTo_succ_block A 512 (n % 8) (640 * (n / 8) + l.val) (by omega) (by have := l.isLt; omega)

/-- At a first row block nothing precedes: the partial sum is zero plus the block's rows. -/
theorem partialSums_first (A : (⟨2, ![4096, 16000]⟩ : Shape).Idx → EReal) (n : ℕ) (hn : n < 200) (h0 : n % 8 = 0)
    (u : Fin 1) (l : Fin 640) :
    partialSums A n (ix2 u l) = 0 + ∑ k : Fin 512, A (ix2 (rowOf n k) (colOf n hn l)) := by
  rw [partialSums_grow A n hn u l]
  refine congrArg (· + _) ?_
  rw [h0, Nat.mul_zero]
  exact rowsUpTo_zero A _

/-- At a later row block the earlier row blocks are what the point before left. -/
theorem partialSums_later (A : (⟨2, ![4096, 16000]⟩ : Shape).Idx → EReal) (n : ℕ) (hn : n < 200) (h0 : ¬n % 8 = 0)
    (u : Fin 1) (l : Fin 640) :
    partialSums A n (ix2 u l) = partialSums A (n - 1) (ix2 u l) + ∑ k : Fin 512, A (ix2 (rowOf n k) (colOf n hn l)) := by
  rw [partialSums_grow A n hn u l]
  refine congrArg (· + _) ?_
  show _ = rowsUpTo A (512 * ((n - 1) % 8 + 1)) (640 * ((n - 1) / 8) + l.val)
  have e1 : (n - 1) % 8 + 1 = n % 8 := by omega
  have e2 : (n - 1) / 8 = n / 8 := by omega
  rw [e1, e2]

/-- A first row block's point leaves the partial sums (zero plus its own rows). -/
theorem first_point (c : Dev nD) (t : Fin cfg0.N) (h0 : t.val % 8 = 0) :
    outsAt0 m c t.val t.isLt = (partialSums ones t.val, partialSums (errs m c) t.val) := by
  rw [outsAt0_A m c t h0]
  refine Prod.ext ?_ ?_ <;> dsimp only
  · refine (Pieces.count_first (F := Ideal) c (grid0.coords t) (ms0_0 t) (hs0_0 t) (ms0_1 t) (hs0_1 t) (ms0_2 t) (hs0_2 t)
      (ms0_3 t) (hs0_3 t) ((hcond0_0 t).mpr h0) (iblk m c 0 t) (iblk m c 1 t)).trans ?_
    funext y
    obtain ⟨u, l, rfl⟩ : ∃ (u : Fin 1) (l : Fin 640), y = ix2 u l := ⟨y 0, y 1, eq_ix2 y⟩
    refine (Payloads.count_apply (iblk m c 1 t) (k0_pay1 (F := Ideal)) u l).trans ?_
    rw [Payloads.zero_count_apply]
    exact (partialSums_first ones t.val (lt_points t) h0 u l).symm
  · refine (Pieces.error_first (F := Ideal) c (grid0.coords t) (ms0_0 t) (hs0_0 t) (ms0_1 t) (hs0_1 t) (ms0_2 t) (hs0_2 t)
      (ms0_3 t) (hs0_3 t) ((hcond0_0 t).mpr h0) (iblk m c 0 t) (iblk m c 1 t)).trans ?_
    funext y
    obtain ⟨u, l, rfl⟩ : ∃ (u : Fin 1) (l : Fin 640), y = ix2 u l := ⟨y 0, y 1, eq_ix2 y⟩
    refine (Payloads.error_apply (iblk m c 0 t) (iblk m c 1 t) (k0_pay2 (F := Ideal)) u l).trans ?_
    rw [Payloads.zero_error_apply, partialSums_first (errs m c) t.val (lt_points t) h0 u l]
    refine congrArg (0 + ·) (Finset.sum_congr rfl fun k _ => ?_)
    show sqErr _ _ = sqErr _ _
    rw [pred_block_apply m c t k l, targ_block_apply m c t k l]

/-- A later row block's point adds its own rows to what the point before left. -/
theorem later_point (c : Dev nD) (t : Fin cfg0.N) (h0 : ¬t.val % 8 = 0)
    (ih : outsAt0 m c (t.val - 1) (Nat.lt_of_le_of_lt (Nat.sub_le _ _) t.isLt)
      = (partialSums ones (t.val - 1), partialSums (errs m c) (t.val - 1))) :
    outsAt0 m c t.val t.isLt = (partialSums ones t.val, partialSums (errs m c) t.val) := by
  rw [outsAt0_B m c t h0, ih]
  refine Prod.ext ?_ ?_ <;> dsimp only
  · refine (Pieces.count_later (F := Ideal) c (grid0.coords t) (ms0_0 t) (hs0_0 t) (ms0_1 t) (hs0_1 t) (ms0_2 t) (hs0_2 t)
      (ms0_3 t) (hs0_3 t) (fun h => h0 ((hcond0_0 t).mp h)) (iblk m c 0 t) (iblk m c 1 t)
      (partialSums ones (t.val - 1)) (partialSums (errs m c) (t.val - 1))).trans ?_
    funext y
    obtain ⟨u, l, rfl⟩ : ∃ (u : Fin 1) (l : Fin 640), y = ix2 u l := ⟨y 0, y 1, eq_ix2 y⟩
    refine (Payloads.count_apply (iblk m c 1 t) (partialSums ones (t.val - 1)) u l).trans ?_
    exact (partialSums_later ones t.val (lt_points t) h0 u l).symm
  · refine (Pieces.error_later (F := Ideal) c (grid0.coords t) (ms0_0 t) (hs0_0 t) (ms0_1 t) (hs0_1 t) (ms0_2 t) (hs0_2 t)
      (ms0_3 t) (hs0_3 t) (fun h => h0 ((hcond0_0 t).mp h)) (iblk m c 0 t) (iblk m c 1 t)
      (partialSums ones (t.val - 1)) (partialSums (errs m c) (t.val - 1))).trans ?_
    funext y
    obtain ⟨u, l, rfl⟩ : ∃ (u : Fin 1) (l : Fin 640), y = ix2 u l := ⟨y 0, y 1, eq_ix2 y⟩
    refine (Payloads.error_apply (iblk m c 0 t) (iblk m c 1 t) (partialSums (errs m c) (t.val - 1)) u l).trans ?_
    rw [partialSums_later (errs m c) t.val (lt_points t) h0 u l]
    refine congrArg (_ + ·) (Finset.sum_congr rfl fun k _ => ?_)
    show sqErr _ _ = sqErr _ _
    rw [pred_block_apply m c t k l, targ_block_apply m c t k l]

/-- What the two accumulators hold after point `n`: the partial column sums, by induction on the point. -/
theorem outsAt_eq (c : Dev nD) : ∀ (n : ℕ) (h : n < cfg0.N),
    outsAt0 m c n h = (partialSums ones n, partialSums (errs m c) n) := by
  intro n
  induction n with
  | zero => intro h; exact first_point m c ⟨0, h⟩ rfl
  | succ n ih =>
    intro h
    by_cases h0 : (n + 1) % 8 = 0
    · exact first_point m c ⟨n + 1, h⟩ h0
    · exact later_point m c ⟨n + 1, h⟩ h0 (ih _)

end Cert.KernelIdeal.Blocks

end
-- ==== Proof.KernelArrays.lean ====
/-
  From the accumulators to the two result rows.

  The two 1 x 16000 result rows are written back once per column block, after its last row block (the points
  `n` with `n % 8 = 7`). By then the partial sums run over all `512 * 8 = 4096` rows, so the block written back is the
  column totals of the per-entry matrix, read through the block's columns `640 (n / 8) … 640 (n / 8) + 639`
  (`partialSums_last`). Every column lies in exactly such a block (column `c` in the block of point
  `8 (c / 640) + 7`), so after the region each row holds every column's total.
-/
import proofs.«134827_j7301444403961_2_alg».proof.Proof.KernelBlocks

noncomputable section

open scoped BigOperators

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx MaskedError RowBlocks

variable (m : (ℓ : Loc nD τ sig) → Buf (Elt Ideal) ℓ) (ρ : Dev nD → PrngReg)

/-- After a last row block the partial sums are the column totals, read through the count row's block. -/
theorem partialSums_last_count (A : (⟨2, ![4096, 16000]⟩ : Shape).Idx → EReal) (t : Fin cfg0.N) (h7 : t.val % 8 = 7)
    (j : S1x640.Idx) : partialSums A t.val j = colTotals A (((cfg0.win 2).blk t).view.emb j) := by
  obtain ⟨-, -, -, -, -, e1, -⟩ := index_facts t
  have hN := lt_points t
  have hj : (j 1).val < 640 := (j 1).isLt
  show rowsUpTo A (512 * (t.val % 8 + 1)) (640 * (t.val / 8) + (j 1).val) = ∑ r : Fin 4096, A (ix2 r _)
  have e : 512 * (t.val % 8 + 1) = 4096 := by omega
  rw [e, rowsUpTo_all A (640 * (t.val / 8) + (j 1).val) (by omega)]
  refine Finset.sum_congr rfl fun r _ => congrArg A (congrArg (ix2 r) (Fin.ext ?_))
  show 640 * (t.val / 8) + (j 1).val = win0_2.index t (1 : Fin 2) * 640 + 1 * (j 1).val
  rw [e1]; omega

/-- The same through the error row's block. -/
theorem partialSums_last_error (A : (⟨2, ![4096, 16000]⟩ : Shape).Idx → EReal) (t : Fin cfg0.N) (h7 : t.val % 8 = 7)
    (j : S1x640.Idx) : partialSums A t.val j = colTotals A (((cfg0.win 3).blk t).view.emb j) := by
  obtain ⟨-, -, -, -, -, -, -, e1⟩ := index_facts t
  have hN := lt_points t
  have hj : (j 1).val < 640 := (j 1).isLt
  show rowsUpTo A (512 * (t.val % 8 + 1)) (640 * (t.val / 8) + (j 1).val) = ∑ r : Fin 4096, A (ix2 r _)
  have e : 512 * (t.val % 8 + 1) = 4096 := by omega
  rw [e, rowsUpTo_all A (640 * (t.val / 8) + (j 1).val) (by omega)]
  refine Finset.sum_congr rfl fun r _ => congrArg A (congrArg (ix2 r) (Fin.ext ?_))
  show 640 * (t.val / 8) + (j 1).val = win0_3.index t (1 : Fin 2) * 640 + 1 * (j 1).val
  rw [e1]; omega

/-- What a writing point writes back to the count row: its block of the column totals of the all-ones matrix. -/
theorem count_flushed (c : Dev nD) (t : Fin cfg0.N) (hf : (cfg0.win 2).flush t = true) :
    (dats m 0 c).flushed 2 t = ((cfg0.win 2).blk t).view.read (Elt Ideal) (colTotals ones) := by
  have h7 : t.val % 8 = 7 := (flush0_2 t).mp hf
  show (cfg0.win 2).cut (grid0.coords t) ((dats m 0 c).after 2 t) = _
  rw [after0_2, outsAt_eq m c t.val t.isLt]
  funext j
  show partialSums ones t.val j = colTotals ones (((cfg0.win 2).blk t).view.emb j)
  exact partialSums_last_count ones t h7 j

/-- What a writing point writes back to the error row: its block of the column totals of the squared errors. -/
theorem error_flushed (c : Dev nD) (t : Fin cfg0.N) (hf : (cfg0.win 3).flush t = true) :
    (dats m 0 c).flushed 3 t = ((cfg0.win 3).blk t).view.read (Elt Ideal) (colTotals (errs m c)) := by
  have h7 : t.val % 8 = 7 := (flush0_3 t).mp hf
  show (cfg0.win 3).cut (grid0.coords t) ((dats m 0 c).after 3 t) = _
  rw [after0_3, outsAt_eq m c t.val t.isLt]
  funext j
  show partialSums (errs m c) t.val j = colTotals (errs m c) (((cfg0.win 3).blk t).view.emb j)
  exact partialSums_last_error (errs m c) t h7 j

/-- An index of the count row is in point `t`'s block iff each coordinate is in the block's range. -/
theorem mem_count_block (t : Fin cfg0.N) (i : S1x16000.Idx) :
    i ∈ ((cfg0.win 2).blk t).view.set ↔ ∀ a : Fin 2, win0_2.index t a * S1x640.size a ≤ (i a).val ∧ (i a).val < win0_2.index t a * S1x640.size a + S1x640.size a := by
  show i ∈ ((View.whole main_v2_0).slice (win0_2.rect t)).set ↔ _
  rw [View.set_slice_whole, Rect.mem_set_unit]
  exact Iff.rfl

theorem mem_error_block (t : Fin cfg0.N) (i : S1x16000.Idx) :
    i ∈ ((cfg0.win 3).blk t).view.set ↔ ∀ a : Fin 2, win0_3.index t a * S1x640.size a ≤ (i a).val ∧ (i a).val < win0_3.index t a * S1x640.size a + S1x640.size a := by
  show i ∈ ((View.whole main_v2_1).slice (win0_3.rect t)).set ↔ _
  rw [View.set_slice_whole, Rect.mem_set_unit]
  exact Iff.rfl

/-- The last row block's point of column `c`'s column block. -/
def writer (i : S1x16000.Idx) : Fin cfg0.N :=
  ⟨8 * ((i 1).val / 640) + 7, by have h1 : (i 1).val < 16000 := (i 1).isLt; rw [show cfg0.N = 200 from N_0]; omega⟩

theorem writer_val (i : S1x16000.Idx) : (writer i).val = 8 * ((i 1).val / 640) + 7 := rfl

/-- Every index of the count row is in a writing point's block. -/
theorem count_cover (i : S1x16000.Idx) :
    ∃ t : Fin cfg0.N, (cfg0.win 2).flush t = true ∧ i ∈ ((cfg0.win 2).blk t).view.set := by
  have hi0 : (i 0).val < 1 := (i 0).isLt
  have hi1 : (i 1).val < 16000 := (i 1).isLt
  have hv := writer_val i
  obtain ⟨-, -, -, -, e0, e1, -⟩ := index_facts (writer i)
  refine ⟨writer i, (flush0_2 (writer i)).mpr (by rw [hv]; omega), ?_⟩
  rw [mem_count_block]
  intro a
  match a with
  | ⟨0, _⟩ => show win0_2.index (writer i) (0 : Fin 2) * 1 ≤ (i 0).val ∧ (i 0).val < win0_2.index (writer i) (0 : Fin 2) * 1 + 1; rw [e0]; omega
  | ⟨1, _⟩ => show win0_2.index (writer i) (1 : Fin 2) * 640 ≤ (i 1).val ∧ (i 1).val < win0_2.index (writer i) (1 : Fin 2) * 640 + 640; rw [e1, hv]; omega

/-- Every index of the error row is in a writing point's block. -/
theorem error_cover (i : S1x16000.Idx) :
    ∃ t : Fin cfg0.N, (cfg0.win 3).flush t = true ∧ i ∈ ((cfg0.win 3).blk t).view.set := by
  have hi0 : (i 0).val < 1 := (i 0).isLt
  have hi1 : (i 1).val < 16000 := (i 1).isLt
  have hv := writer_val i
  obtain ⟨-, -, -, -, -, -, e0, e1⟩ := index_facts (writer i)
  refine ⟨writer i, (flush0_3 (writer i)).mpr (by rw [hv]; omega), ?_⟩
  rw [mem_error_block]
  intro a
  match a with
  | ⟨0, _⟩ => show win0_3.index (writer i) (0 : Fin 2) * 1 ≤ (i 0).val ∧ (i 0).val < win0_3.index (writer i) (0 : Fin 2) * 1 + 1; rw [e0]; omega
  | ⟨1, _⟩ => show win0_3.index (writer i) (1 : Fin 2) * 640 ≤ (i 1).val ∧ (i 1).val < win0_3.index (writer i) (1 : Fin 2) * 640 + 640; rw [e1, hv]; omega

/-- After the region the count row holds every column's count of entries. -/
theorem count_final (c : Dev nD) : (dats m 0 c).arrAt 2 cfg0.N = colTotals ones :=
  (dats m 0 c).arrAt_eq_of_cover 2 (colTotals ones) (count_flushed m c) count_cover

/-- After the region the error row holds every column's total of masked squared errors. -/
theorem error_final (c : Dev nD) : (dats m 0 c).arrAt 3 cfg0.N = colTotals (errs m c) :=
  (dats m 0 c).arrAt_eq_of_cover 3 (colTotals (errs m c)) (error_flushed m c) error_cover

end Cert.KernelIdeal.Blocks

end
-- ==== Proof.KernelResult.lean ====
/-
  The kernel's scalar result, and its run.

  After the region the program re-lays the two 1 x 16000 result rows as 4000 x 4 arrays `cnt` and `ss` and finishes with a
  chain of host operations: `valid = cnt > 0`, `mse = ss / max cnt 1`, `rmse = sqrt (valid ? mse : 0)`, then
  `(∑ rows rmse) / (∑ rows valid)` per variable, summed over the four variables and divided by four. The reference ends
  with the very same chain, so it is carried as ONE function `finish cnt ss` and never opened: all that matters is what
  goes in. What goes in, on this side, is the re-laid column totals of the all-ones matrix and of the squared errors.
  The two matrices the region finds are the two arguments re-laid from 4096 x 4000 x 4 to 4096 x 16000.
-/
import proofs.«134827_j7301444403961_2_alg».proof.Proof.KernelArrays
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx MaskedError RowBlocks Cert.KernelIdeal.Blocks

/-- The finishing chain both programs end with, as one function of the per-column counts and error totals. -/
def finish (cnt ss : FVec Ideal S4000x4 .f32) : FVec Ideal S_ .f32 :=
  Host.divf (F := Ideal)
    (Host.reduceAdd (F := Ideal)
      (Host.divf (F := Ideal)
        (Host.reduceAdd (F := Ideal)
          (Host.sqrt (F := Ideal)
            (select (cmpf (F := Ideal) .ogt cnt (broadcastInDim S4000x4 ![] bcast_S_S4000x4 (constant (F := Ideal) S_ .f32 0x00000000#32)))
              (Host.divf (F := Ideal) ss (maximumf cnt (broadcastInDim S4000x4 ![] bcast_S_S4000x4 (constant (F := Ideal) S_ .f32 0x3F800000#32))))
              (broadcastInDim S4000x4 ![] bcast_S_S4000x4 (id (constant (F := Ideal) S_ .f32 0x00000000#32)))))
          (constant (F := Ideal) S_ .f32 0x00000000#32) reducesTo_S4000x4_S4_d0 h_S_)
        (Host.reduceAdd (F := Ideal)
          (uitofp (F := Ideal) .f32 (cmpf (F := Ideal) .ogt cnt (broadcastInDim S4000x4 ![] bcast_S_S4000x4 (constant (F := Ideal) S_ .f32 0x00000000#32))))
          (constant (F := Ideal) S_ .f32 0x00000000#32) reducesTo_S4000x4_S4_d0 h_S_))
      (constant (F := Ideal) S_ .f32 0x00000000#32) reducesTo_S4_S_d0 h_S_)
    (constant (F := Ideal) S_ .f32 0x40800000#32)

variable (m : (ℓ : Loc nD τ sig) → Buf (Elt Ideal) ℓ) (ρ : Dev nD → PrngReg)

/-- The matrix of predictions the region finds: the first argument re-laid as 4096 x 16000. -/
theorem entry_pred (c : Dev nD) :
    (V m c main_v0 : S4096x16000.Idx → EReal)
      = shapeCast S4096x16000 (m ((c : Thread nD τ).loc main_arg0)) shapeCasts_S4096x4000x4_S4096x16000 := by
  show StableHlo.after hostOps0 (fun b => m (c, b)) (Proc.devRef .tc main_v0) = _
  after_results
  rfl

/-- The matrix of targets the region finds: the second argument re-laid as 4096 x 16000. -/
theorem entry_targ (c : Dev nD) :
    (V m c main_v1 : S4096x16000.Idx → EReal)
      = shapeCast S4096x16000 (m ((c : Thread nD τ).loc main_arg1)) shapeCasts_S4096x4000x4_S4096x16000 := by
  show StableHlo.after hostOps0 (fun b => m (c, b)) (Proc.devRef .tc main_v1) = _
  after_results
  rfl

/-- The per-column counts and error totals, re-laid as 4000 x 4. -/
def counts : FVec Ideal S4000x4 .f32 := shapeCast S4000x4 (colTotals ones) shapeCasts_S1x16000_S4000x4
def errors (c : Dev nD) : FVec Ideal S4000x4 .f32 := shapeCast S4000x4 (colTotals (errs m c)) shapeCasts_S1x16000_S4000x4

/-- What the lines after the region find in the count row: every column's count. -/
theorem count_row (c : Dev nD) :
    (Pipeline.withArrays (cfgs 0).spec c (V0 m c) (fun w => (dats m 0 c).arrAt w (cfgs 0).N) (Proc.devRef .tc main_v2_0)
      : S1x16000.Idx → EReal) = colTotals ones :=
  (Pipeline.withArrays_arr spec0 launch0.win.arr_inj c _ _ 2).trans (count_final m c)

/-- What they find in the error row: every column's error total. -/
theorem error_row (c : Dev nD) :
    (Pipeline.withArrays (cfgs 0).spec c (V0 m c) (fun w => (dats m 0 c).arrAt w (cfgs 0).N) (Proc.devRef .tc main_v2_1)
      : S1x16000.Idx → EReal) = colTotals (errs m c) :=
  (Pipeline.withArrays_arr spec0 launch0.win.arr_inj c _ _ 3).trans (error_final m c)

set_option maxHeartbeats 1600000 in
/-- The scalar the program returns: the finishing chain of the re-laid column totals. -/
theorem result_eq (c : Dev nD) :
    Pipeline.afterTail₀ cfgs (dats m) 0 (V0 m) [hostOps1, hostOps1_1, hostOps1_2] c main_v17 = finish counts (errors m c) := by
  unfold Pipeline.afterTail₀
  simp only [hostOps1, hostOps1_1, hostOps1_2, List.flatten_cons, List.flatten_nil, List.append_nil, List.cons_append, List.nil_append]
  after_results_simp
  rw [count_row m c, error_row m c]
  unfold finish counts errors
  simp only [StableHlo.TRef.toBuf, StableHlo.TRef.ofBuf, cast_eq]
  rfl

/-- Every weakly fair execution of the program terminates with its result at that scalar and the arguments unchanged. -/
theorem run : θ_run defs (onTc (τ := τ) (main (F := Ideal))) ⟨m, fun _ => 0, ρ⟩ fun r => ∀ c : Dev nD,
      r.2.mem ((c.tc : Thread nD τ).loc main_v17) = finish counts (errors m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v17 (Pipeline.mem_restRefs_of main_v17 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.ReferenceTotals.lean ====
/-
  The reference's per-column counts and error totals, read at an index over the extended reals.

  The reference computes the validity indicator of every entry of the 4096 x 4000 x 4 target array (`1` everywhere: over the
  extended reals every number equals itself), the masked squared error `sqErr o t` of every entry, and sums each over
  the first axis from zero: at `(s, y)` the count is `0 + ∑ k < 4096, 1` and the error total
  `0 + ∑ k < 4096, sqErr (o (k, s, y)) (t (k, s, y))`.
-/
import proofs.«134827_j7301444403961_2_alg».proof.Proof.ReferenceReadPatched
import proofs.«134827_j7301444403961_2_alg».proof.Proof.Pointwise
import Idealize.ShloMosaic.Lib.ValueIdx

noncomputable section

open scoped BigOperators

namespace Cert.ReferenceIdeal.Totals

open Cert.ReferenceIdeal Cert.ReferenceIdeal.ReadP Idealize.ShloMosaic Idealize.ShloMosaic.ValueIdx MaskedError

/-- The validity indicator of an entry is one. -/
theorem indicator_apply (t : (⟨S4096x4000x4, .f32⟩ : BufTy).Contents (Elt Ideal)) (i : S4096x4000x4.Idx) :
    val_main_v2 (F := Ideal) t i = (1 : EReal) := by
  rw [val_main_v2_apply, val_main_v1_apply, val_main_v0_apply]
  exact indicator_unsigned (t i)

/-- The squared masked error of an entry. -/
theorem sqErr_apply (o t : (⟨S4096x4000x4, .f32⟩ : BufTy).Contents (Elt Ideal)) (i : S4096x4000x4.Idx) :
    val_main_v6 (F := Ideal) o t i = sqErr (o i) (t i) := by
  rw [val_main_v6_apply, val_main_v5_apply, val_main_v4_apply, val_main_v3_apply, indicator_apply, val_main_v1_apply,
    val_main_v0_apply, not_une_self, select_one]
  rfl

/-- The index the sum over the first axis reads at row `k` above `(s, y)`. -/
theorem idx_count (s : Fin 4000) (y : Fin 4) (k : Fin 4096) : idx_main_v7 (ix2 s y) k = (ix3 k s y : S4096x4000x4.Idx) := by
  funext a
  apply Fin.ext
  match a with
  | ⟨0, _⟩ => rfl
  | ⟨1, _⟩ => rfl
  | ⟨2, _⟩ => rfl

theorem idx_error (s : Fin 4000) (y : Fin 4) (k : Fin 4096) : idx_main_v8 (ix2 s y) k = (ix3 k s y : S4096x4000x4.Idx) := by
  funext a
  apply Fin.ext
  match a with
  | ⟨0, _⟩ => rfl
  | ⟨1, _⟩ => rfl
  | ⟨2, _⟩ => rfl

/-- The count at `(s, y)`. -/
theorem counts_apply (t : (⟨S4096x4000x4, .f32⟩ : BufTy).Contents (Elt Ideal)) (s : Fin 4000) (y : Fin 4) :
    val_main_v7 (F := Ideal) t (ix2 s y) = 0 + ∑ k : Fin 4096, (1 : EReal) := by
  rw [val_main_v7_apply]
  refine congrArg₂ (· + ·) ?_ (Finset.sum_congr rfl fun k _ => indicator_apply t _)
  exact Ideal.ofBits_zero_f32

/-- The error total at `(s, y)`. -/
theorem errors_apply (o t : (⟨S4096x4000x4, .f32⟩ : BufTy).Contents (Elt Ideal)) (s : Fin 4000) (y : Fin 4) :
    val_main_v8 (F := Ideal) o t (ix2 s y) = 0 + ∑ k : Fin 4096, sqErr (o (ix3 k s y)) (t (ix3 k s y)) := by
  rw [val_main_v8_apply]
  refine congrArg₂ (· + ·) ?_ (Finset.sum_congr rfl fun k _ => ?_)
  · exact Ideal.ofBits_zero_f32
  · rw [sqErr_apply, idx_error]

end Cert.ReferenceIdeal.Totals

end
-- ==== Proof.Bridge.lean ====
/-
  The two programs feed the same numbers to the same finishing chain.

  On one side the per-column counts and error totals are column totals of 4096 x 16000 matrices (the arguments re-laid),
  re-laid again from 1 x 16000 to 4000 x 4; on the other they are sums over the first axis of the 4096 x 4000 x 4
  arrays. Row-major re-laying sends `(k, s, y)` to `(k, 4 s + y)` and `(0, 4 s + y)` to `(s, y)`, so at `(s, y)` both are
  `∑ k < 4096` of the same per-entry quantity at `(k, s, y)` (one side adds it to a literal zero). The finishing chain is
  one function of these two arrays on both sides, so the results agree.
-/
import proofs.«134827_j7301444403961_2_alg».proof.Proof.KernelResult
import proofs.«134827_j7301444403961_2_alg».proof.Proof.ReferenceTotals

noncomputable section

open scoped BigOperators

open Idealize.ShloMosaic Idealize.ShloMosaic.TcCoe Idealize.SL.Sem

namespace Cert.Proof.Bridge

open Idealize.ShloMosaic.ValueIdx MaskedError Cert.KernelIdeal Cert.KernelIdeal.Gen Cert.KernelIdeal.Blocks Cert.KernelIdeal.Result

variable (m : (ℓ : Loc nD τ sig) → Buf (Elt Ideal) ℓ)

theorem col_lt (s : Fin 4000) (y : Fin 4) : 4 * s.val + y.val < 16000 := by have := s.isLt; have := y.isLt; omega

/-- A 4096 x 4000 x 4 array re-laid as 4096 x 16000 reads, at `(k, 4 s + y)`, the array at `(k, s, y)`. -/
theorem relaid_apply (x : S4096x4000x4.Idx → EReal) (k : Fin 4096) (s : Fin 4000) (y : Fin 4) :
    shapeCast S4096x16000 x shapeCasts_S4096x4000x4_S4096x16000 (ix2 k ⟨4 * s.val + y.val, col_lt s y⟩) = x (ix3 k s y) :=
  shapeCast_apply x shapeCasts_S4096x4000x4_S4096x16000 _ _ (by
    rw [Shape.rowMajor_val_three, Shape.rowMajor_val_two]
    show (k.val * 4000 + s.val) * 4 + y.val = k.val * 16000 + (4 * s.val + y.val)
    omega)

/-- A 1 x 16000 row re-laid as 4000 x 4 reads, at `(s, y)`, the row at `(0, 4 s + y)`. -/
theorem row_relaid_apply (x : S1x16000.Idx → EReal) (s : Fin 4000) (y : Fin 4) :
    shapeCast S4000x4 x shapeCasts_S1x16000_S4000x4 (ix2 s y) = x (ix2 (0 : Fin 1) ⟨4 * s.val + y.val, col_lt s y⟩) :=
  shapeCast_apply x shapeCasts_S1x16000_S4000x4 _ _ (by
    rw [Shape.rowMajor_val_two, Shape.rowMajor_val_two]
    show (0 : ℕ) * 16000 + (4 * s.val + y.val) = s.val * 4 + y.val
    omega)

/-- The re-laid counts at `(s, y)`. -/
theorem counts_apply (s : Fin 4000) (y : Fin 4) : counts (ix2 s y) = ∑ k : Fin 4096, (1 : EReal) := by
  unfold counts
  rw [row_relaid_apply]
  rfl

/-- The re-laid error totals at `(s, y)`, in terms of the two arguments. -/
theorem errors_apply (c : Dev nD) (s : Fin 4000) (y : Fin 4) :
    errors m c (ix2 s y) = ∑ k : Fin 4096, sqErr (m ((c : Thread nD τ).loc main_arg0) (ix3 k s y)) (m ((c : Thread nD τ).loc main_arg1) (ix3 k s y)) := by
  unfold errors
  rw [row_relaid_apply]
  show ∑ k : Fin 4096, errs m c (ix2 k ⟨4 * s.val + y.val, col_lt s y⟩) = _
  refine Finset.sum_congr rfl fun k _ => ?_
  show sqErr ((V m c main_v0 : S4096x16000.Idx → EReal) (ix2 k ⟨4 * s.val + y.val, col_lt s y⟩))
      ((V m c main_v1 : S4096x16000.Idx → EReal) (ix2 k ⟨4 * s.val + y.val, col_lt s y⟩)) = _
  rw [entry_pred m c, entry_targ m c, relaid_apply, relaid_apply]

/-- The counts are the reference's counts. -/
theorem counts_eq (t : (⟨Cert.ReferenceIdeal.S4096x4000x4, .f32⟩ : BufTy).Contents (Elt Ideal)) :
    counts = Cert.ReferenceIdeal.ReadP.val_main_v7 (F := Ideal) t := by
  funext i
  obtain ⟨s, y, rfl⟩ : ∃ (s : Fin 4000) (y : Fin 4), i = ix2 s y := ⟨i 0, i 1, eq_ix2 i⟩
  rw [counts_apply, Cert.ReferenceIdeal.Totals.counts_apply, zero_add]

/-- The error totals are the reference's error totals of the same arguments. -/
theorem errors_eq (c : Dev nD) :
    errors m c = Cert.ReferenceIdeal.ReadP.val_main_v8 (F := Ideal) (m ((c : Thread nD τ).loc main_arg0)) (m ((c : Thread nD τ).loc main_arg1)) := by
  funext i
  obtain ⟨s, y, rfl⟩ : ∃ (s : Fin 4000) (y : Fin 4), i = ix2 s y := ⟨i 0, i 1, eq_ix2 i⟩
  rw [errors_apply, Cert.ReferenceIdeal.Totals.errors_apply, zero_add]

/-- The reference's last stage is the finishing chain of its counts and error totals. -/
theorem reference_finish (o t : (⟨Cert.ReferenceIdeal.S4096x4000x4, .f32⟩ : BufTy).Contents (Elt Ideal)) :
    Cert.ReferenceIdeal.ReadP.val_main_v21 (F := Ideal) o t
      = finish (Cert.ReferenceIdeal.ReadP.val_main_v7 (F := Ideal) t) (Cert.ReferenceIdeal.ReadP.val_main_v8 (F := Ideal) o t) := rfl

/-- So the reference's result, from the same arguments, is the kernel's. -/
theorem reference_result (c : Dev nD) :
    Cert.ReferenceIdeal.ReadP.val_main_v21 (F := Ideal) (m ((c : Thread nD τ).loc main_arg0)) (m ((c : Thread nD τ).loc main_arg1))
      = finish counts (errors m c) := by
  rw [counts_eq (m ((c : Thread nD τ).loc main_arg1)), errors_eq m c]
  exact reference_finish _ _

end Cert.Proof.Bridge

end
-- ==== Proof.lean ====
/-
  Masked root-mean-square error: a kernel that accumulates, per column, the count of valid entries and the total of
  masked squared errors over blocks of rows, against the plain sums over the first axis — equal over the extended reals.

  THE MATHEMATICS. For predictions `o` and targets `t` of shape 4096 x 4000 x 4, an entry is valid when `t = t`; per
  column `(s, y)` both programs form the count `cnt = ∑ k, valid` and the error total `ss = ∑ k, ((o - masked t) · valid)²`
  over the 4096 entries `k` of the first axis, and finish with the same chain (`ss / max cnt 1` where `cnt > 0`, its
  square root, the mean over the valid columns of each variable, the mean over the four variables). Over the extended
  reals every number equals itself, so `valid` is `1` at every entry and `masked t = t` in both programs
  (Proof/Pointwise.lean): the per-entry quantities agree term for term.

  The programs differ in how the sums over `k` are taken. The reference sums all 4096 entries at once. The kernel
  re-lays the arrays as 4096 x 16000 matrices and walks a 25 x 8 grid: for each block of 640 columns it runs through the
  eight blocks of 512 rows, starting two 1 x 640 accumulators from zero at the first row block, adding each row block's
  column sums, and writing the accumulators back after the last. By induction on the grid point the accumulators hold
  the column sums over the rows seen so far (Proof/KernelBlocks.lean; the law is that a sum over the first `n + k` rows
  is the sum over the first `n` plus the sum over the next `k`, Proof/LibRowBlocks.lean), so what is written back is
  each column's total (Proof/KernelArrays.lean). Only associativity and commutativity of addition on the extended reals
  are used, so the inputs' finiteness is never needed. The finishing chain is identical in the two programs and is carried
  as one function of the two arrays (Proof/KernelResult.lean), which agree index by index once the row-major re-layings
  are read at an index (Proof/Bridge.lean).

  THE CLAIMS. The three frames are the generated frame runs (the reference's: its generated run with the result
  dropped); the idealization rewrote nothing, so `preserves` is `True`; `algebraic` is the two runs side by side, both
  ending at `finish counts errors` of arguments that agree.
-/
import proofs.«134827_j7301444403961_2_alg».proof.Defs
import proofs.«134827_j7301444403961_2_alg».proof.Proof.Gen.Kernel
import proofs.«134827_j7301444403961_2_alg».proof.Proof.Gen.Kernel.Skeleton
import proofs.«134827_j7301444403961_2_alg».proof.Proof.Gen.Kernel.Launch
import proofs.«134827_j7301444403961_2_alg».proof.Proof.Gen.Kernel.Points
import proofs.«134827_j7301444403961_2_alg».proof.Proof.Gen.Kernel.Frame
import proofs.«134827_j7301444403961_2_alg».proof.Proof.Gen.KernelIdeal
import proofs.«134827_j7301444403961_2_alg».proof.Proof.Gen.KernelIdeal.Skeleton
import proofs.«134827_j7301444403961_2_alg».proof.Proof.Gen.KernelIdeal.Launch
import proofs.«134827_j7301444403961_2_alg».proof.Proof.Gen.KernelIdeal.Points
import proofs.«134827_j7301444403961_2_alg».proof.Proof.Gen.KernelIdeal.Frame
import proofs.«134827_j7301444403961_2_alg».proof.Proof.Gen.ReferenceIdeal
import proofs.«134827_j7301444403961_2_alg».proof.Proof.Gen.Pre_finite_inputs
import proofs.«134827_j7301444403961_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Over the extended reals both programs end at the finishing chain of the per-column counts and error totals of
    arguments that agree. -/
theorem algebraic : Cert.algebraic_KernelIdeal_ReferenceIdeal := by
  intro m ρ m' ρ' _ hagree
  refine ⟨fun c => Cert.KernelIdeal.Result.finish Cert.KernelIdeal.Result.counts (Cert.KernelIdeal.Result.errors m c),
    Cert.KernelIdeal.Result.run m ρ, ?_⟩
  refine (θ_run Cert.ReferenceIdeal.defs _ _).mono (fun _ h c => ⟨?_, (h c).2⟩)
    (Cert.ReferenceIdeal.ValueP.run (F := Ideal) m' ρ')
  rw [(h c).1, (hagree c).1, (hagree c).2]
  exact (Cert.ReferenceIdeal.ReadP.val_main_v21_eq (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))).trans
    (Cert.Proof.Bridge.reference_result m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
